-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x64 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 63
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S_, .f32⟩
  | .hbm, ⟨50, _⟩ => ⟨S800000, .f32⟩
  | .hbm, ⟨51, _⟩ => ⟨S_, .f32⟩
  | .hbm, ⟨52, _⟩ => ⟨S50000, .f32⟩
  | .hbm, ⟨53, _⟩ => ⟨S800000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S1x64, .f32⟩
  | .hbm, ⟨62, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S50000x64, .f32⟩
  | .hbm, ⟨69, _⟩ => ⟨S50000x64, .f32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with every buffer named at the end.

  @main is four stretches in order: the host operations that aggregate the input features over the edges, the first
  dense layer as a grid of ten row blocks, the same aggregation of that layer's output, and the second dense layer.
  The contents of the TensorCore's buffers at the four boundaries are a fold from the launch memory: a host stretch
  applies its operations, a kernel region overwrites its output array by what its ten blocks write back and leaves
  every other buffer alone. The generated frame certificate proves that every weakly fair execution follows this
  fold to its end, and then keeps only what it needs, that the argument arrays end as launched. Here the same run is
  read with nothing forgotten: at the end EVERY buffer that outlives a region holds the fold's last value
  (`run_all`), in particular the result array (`run_result`).
-/
import proofs.«182260_j42691974922961_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer that outlives a region at the
    last boundary's contents: the segments' run from the launch, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run, keeping the result array and the nine argument arrays: the result ends at the last boundary's
    contents of its buffer, each argument as launched. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v41 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩)
    (run_all m ρ)

end Cert.KernelIdeal.Run

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«182260_j42691974922961_1_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.LibHostBroadcast.lean ====
/-
  The host's `broadcast_in_dim` in its four keepdims forms, read at an entry: a vector `[a]` as a column `[a, 1]`, a
  column `[a, 1]` spread over `b` lanes, a vector `[c]` as a row `[1, c]`, and a row `[1, c]` spread down `a` rows.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- A vector `[a]` broadcast along axis 0 to the column `[a, 1]` reads, at `(i, u)`, the vector at `i`. -/
theorem vec_to_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x (ix2 i u) (ix1 i) fun ax => by
    match ax with
    | ⟨0, _⟩ =>
      show i.val = if a = 1 then 0 else i.val
      split
      · have := i.isLt; omega
      · rfl

/-- A column `[a, 1]` broadcast to `[a, b]` reads, at `(i, j)`, the column at `(i, 0)`. -/
theorem col_to_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) :=
  broadcastInDim_apply _ h x (ix2 i j) (ix2 i (0 : Fin 1)) fun ax => by
    match ax with
    | ⟨0, _⟩ =>
      show i.val = if a = 1 then 0 else i.val
      split
      · have := i.isLt; omega
      · rfl
    | ⟨1, _⟩ =>
      show 0 = if (1 : ℕ) = 1 then 0 else j.val
      rw [if_pos rfl]

/-- A vector `[c]` broadcast along axis 1 to the row `[1, c]` reads, at `(u, j)`, the vector at `j`. -/
theorem vec_to_row_apply {c : ℕ} (x : (⟨1, ![c]⟩ : Shape).Idx → α)
    (h : (⟨1, ![c]⟩ : Shape).BroadcastsInDim ⟨2, ![1, c]⟩ (![1] : Fin 1 → Fin 2)) (u : Fin 1) (j : Fin c) :
    broadcastInDim ⟨2, ![1, c]⟩ (![1] : Fin 1 → Fin 2) h x (ix2 u j) = x (ix1 j) :=
  broadcastInDim_apply _ h x (ix2 u j) (ix1 j) fun ax => by
    match ax with
    | ⟨0, _⟩ =>
      show j.val = if c = 1 then 0 else j.val
      split
      · have := j.isLt; omega
      · rfl

/-- A row `[1, c]` broadcast to `[a, c]` reads, at `(i, j)`, the row at `(0, j)`. -/
theorem row_to_mat_apply {a c : ℕ} (x : (⟨2, ![1, c]⟩ : Shape).Idx → α)
    (h : (⟨2, ![1, c]⟩ : Shape).BroadcastsInDim ⟨2, ![a, c]⟩ (![0, 1] : Fin 2 → Fin 2)) (i : Fin a) (j : Fin c) :
    broadcastInDim ⟨2, ![a, c]⟩ (![0, 1] : Fin 2 → Fin 2) h x (ix2 i j) = x (ix2 (0 : Fin 1) j) :=
  broadcastInDim_apply _ h x (ix2 i j) (ix2 (0 : Fin 1) j) fun ax => by
    match ax with
    | ⟨0, _⟩ =>
      show 0 = if (1 : ℕ) = 1 then 0 else i.val
      rw [if_pos rfl]
    | ⟨1, _⟩ =>
      show j.val = if c = 1 then 0 else j.val
      split
      · have := j.isLt; omega
      · rfl

end Cert.LibHostBroadcast

end
-- ==== Proof.LibSageLayer.lean ====
/-
  The dense half of a graph-convolution layer, `x · ws + h · wn + b`, as a function of whole arrays over the extended
  reals, for any extents: `x` holds one row of features per node, `h` the aggregated features of its neighbours, `ws` and
  `wn` the two weight matrices and `b` the bias. Entry (p, q) is

      (Σ_j x(p, j) · ws(j, q)  +  Σ_j h(p, j) · wn(j, q))  +  b(q).

  A kernel computes it as two matrix products into zero accumulators, added, plus the bias row spread down the rows; a
  host program as two `dot_general`s, added, plus the bias vector laid out as a row and then spread down the rows. Both
  are the same two finite sums and the same bias entry in the same association, so the two agree on every extended
  real: no finiteness is used. An entry reads only row p of `x` and of `h`, which is why a block of rows of the layer
  is the layer of that block of rows.
-/
import proofs.«182260_j42691974922961_1_alg».proof.Proof.LibMatRows
import proofs.«182260_j42691974922961_1_alg».proof.Proof.LibHostBroadcast
import Idealize.ShloMosaic.Lib.ValueLayout
import Idealize.ShloMosaic.Lib.Pipeline.Value
import Idealize.ShloMosaic.Lib.ValueIdx
import Idealize.ShloMosaic.PureOps.Ideal.Laws

noncomputable section

namespace Cert.LibSageLayer

open Idealize.ShloMosaic Idealize.ShloMosaic.ValueIdx Cert.LibMatRows Cert.LibHostBroadcast

variable {a k n : ℕ}

/-- Entry (p, q) of `x · ws + h · wn + b`, the bias given entry by entry. -/
def sageAt (x h : (⟨2, ![a, k]⟩ : Shape).Idx → EReal) (ws wn : (⟨2, ![k, n]⟩ : Shape).Idx → EReal) (β : Fin n → EReal)
    (p : Fin a) (q : Fin n) : EReal :=
  ((∑ j : Fin k, x (ix2 p j) * ws (ix2 j q)) + (∑ j : Fin k, h (ix2 p j) * wn (ix2 j q))) + β q

/-- An entry reads only row `p` of the two left operands, column `q` of the two weight matrices and entry `q` of the
    bias: layers that agree there agree at the entry, whatever the number of rows or columns either has. -/
theorem sageAt_congr {a' n' : ℕ} {x h : (⟨2, ![a, k]⟩ : Shape).Idx → EReal} {x' h' : (⟨2, ![a', k]⟩ : Shape).Idx → EReal}
    {ws wn : (⟨2, ![k, n]⟩ : Shape).Idx → EReal} {ws' wn' : (⟨2, ![k, n']⟩ : Shape).Idx → EReal}
    {β : Fin n → EReal} {β' : Fin n' → EReal} {p : Fin a} {p' : Fin a'} {q : Fin n} {q' : Fin n'}
    (hx : ∀ j : Fin k, x (ix2 p j) = x' (ix2 p' j)) (hh : ∀ j : Fin k, h (ix2 p j) = h' (ix2 p' j))
    (hws : ∀ j : Fin k, ws (ix2 j q) = ws' (ix2 j q')) (hwn : ∀ j : Fin k, wn (ix2 j q) = wn' (ix2 j q'))
    (hβ : β q = β' q') :
    sageAt x h ws wn β p q = sageAt x' h' ws' wn' β' p' q' := by
  unfold sageAt
  rw [hβ]
  exact congrArg (· + β' q') (congrArg₂ (· + ·) (Finset.sum_congr rfl fun j _ => by rw [hx j, hws j])
    (Finset.sum_congr rfl fun j _ => by rw [hh j, hwn j]))

/-- The kernel's form at (p, q): two products into zero accumulators, added, plus the bias row spread down the rows. -/
theorem kernel_sage {d : DotDims ⟨2, ![a, k]⟩ ⟨2, ![k, n]⟩ ⟨2, ![a, n]⟩} (hd : RowsTimesMat d)
    (x h : FVec Ideal ⟨2, ![a, k]⟩ .bf16) (ws wn : FVec Ideal ⟨2, ![k, n]⟩ .bf16) (brow : FVec Ideal ⟨2, ![1, n]⟩ .f32)
    (hb : (⟨2, ![1, n]⟩ : Shape).Broadcasts ⟨2, ![a, n]⟩) (p : Fin a) (q : Fin n) :
    addf (addf (matmul d none x ws (constant (F := Ideal) ⟨2, ![a, n]⟩ .f32 0x00000000#32))
        (matmul d none h wn (constant (F := Ideal) ⟨2, ![a, n]⟩ .f32 0x00000000#32)))
      (broadcastTo ⟨2, ![a, n]⟩ brow hb) (ix2 p q)
      = sageAt x h ws wn (fun q => brow (ix2 (0 : Fin 1) q)) p q :=
  congrArg₂ (· + ·) (congrArg₂ (· + ·) (matmul_rows hd x ws p q) (matmul_rows hd h wn p q))
    (broadcastTo_1b_ab_apply brow hb p q)

/-- The host's form at (p, q): two `dot_general`s, added, plus the bias vector as a row, spread down the rows. -/
theorem host_sage {d : DotDims ⟨2, ![a, k]⟩ ⟨2, ![k, n]⟩ ⟨2, ![a, n]⟩} (hd : RowsTimesMat d)
    (x h : FVec Ideal ⟨2, ![a, k]⟩ .f32) (ws wn : FVec Ideal ⟨2, ![k, n]⟩ .f32) (bv : FVec Ideal ⟨1, ![n]⟩ .f32)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (p : Fin a) (q : Fin n) :
    addf (addf (Host.dotGeneral d none x ws) (Host.dotGeneral d none h wn))
      (broadcastInDim ⟨2, ![a, n]⟩ (![0, 1] : Fin 2 → Fin 2) h2 (broadcastInDim ⟨2, ![1, n]⟩ (![1] : Fin 1 → Fin 2) h1 bv)) (ix2 p q)
      = sageAt x h ws wn (fun q => bv (ix1 q)) p q :=
  congrArg₂ (· + ·) (congrArg₂ (· + ·) (dotGeneral_rows hd x ws p q) (dotGeneral_rows hd h wn p q))
    ((row_to_mat_apply _ h2 p q).trans (vec_to_row_apply bv h1 (0 : Fin 1) q))

/-- The bias vector reshaped to a row reads, at (0, q), the vector at q. -/
theorem bias_row_apply (bv : (⟨1, ![n]⟩ : Shape).Idx → EReal) (hs : (⟨1, ![n]⟩ : Shape).ShapeCasts ⟨2, ![1, n]⟩) (q : Fin n) :
    shapeCast ⟨2, ![1, n]⟩ bv hs (ix2 (0 : Fin 1) q) = bv (ix1 q) :=
  shapeCast_a_1a_apply bv hs _ _

end Cert.LibSageLayer

end
-- ==== Proof.DotRecords.lean ====
/-
  The four matrix products of the two programs are plain products: each dimension record contracts the left operand's
  columns (extent 128) with the right operand's rows, keeps the left operand's rows as the result's rows and the right
  operand's columns as its columns, and has no batch axis. For the kernel the left operand is a block of 5000 rows, for
  the reference the whole array of 50000; the right operand is a weight matrix with 128 or 64 columns.
-/
import proofs.«182260_j42691974922961_1_alg».proof.Proof.LibMatRows
import proofs.«182260_j42691974922961_1_alg».proof.Proof.Gen.KernelIdeal
import proofs.«182260_j42691974922961_1_alg».proof.Proof.Gen.ReferenceIdeal

noncomputable section

namespace Cert.SageRecords

open Idealize.ShloMosaic Cert.LibMatRows

/-- `dot_S5000x128_S128x128_S5000x128_1_0_0_1_n_n` contracts the left operand's columns with the right operand's rows and keeps the left rows and the right
    columns: a plain product. -/
theorem rows_kernel_128 : RowsTimesMat Cert.KernelIdeal.dot_S5000x128_S128x128_S5000x128_1_0_0_1_n_n where
  rank := rfl
  size := rfl
  l0 := fun i q => by
    unfold DotDims.lhsIdx
    rw [dif_neg (show ¬(0 : Fin Cert.KernelIdeal.S5000x128.rank) ∈ Cert.KernelIdeal.dot_S5000x128_S128x128_S5000x128_1_0_0_1_n_n.lhsBatch by decide),
      dif_pos (show (0 : Fin Cert.KernelIdeal.S5000x128.rank) ∈ Cert.KernelIdeal.dot_S5000x128_S128x128_S5000x128_1_0_0_1_n_n.lhsNonContracting by decide)]
    rfl
  l1 := fun i q => Cert.KernelIdeal.dot_S5000x128_S128x128_S5000x128_1_0_0_1_n_n.lhsIdx_val_of_single rfl i q
  r0 := fun i q => Cert.KernelIdeal.dot_S5000x128_S128x128_S5000x128_1_0_0_1_n_n.rhsIdx_val_of_single rfl i q
  r1 := fun i q => by
    unfold DotDims.rhsIdx
    rw [dif_neg (show ¬(1 : Fin Cert.KernelIdeal.S128x128.rank) ∈ Cert.KernelIdeal.dot_S5000x128_S128x128_S5000x128_1_0_0_1_n_n.rhsBatch by decide),
      dif_pos (show (1 : Fin Cert.KernelIdeal.S128x128.rank) ∈ Cert.KernelIdeal.dot_S5000x128_S128x128_S5000x128_1_0_0_1_n_n.rhsNonContracting by decide)]
    rfl

/-- `dot_S5000x128_S128x64_S5000x64_1_0_0_1_n_n` contracts the left operand's columns with the right operand's rows and keeps the left rows and the right
    columns: a plain product. -/
theorem rows_kernel_64 : RowsTimesMat Cert.KernelIdeal.dot_S5000x128_S128x64_S5000x64_1_0_0_1_n_n where
  rank := rfl
  size := rfl
  l0 := fun i q => by
    unfold DotDims.lhsIdx
    rw [dif_neg (show ¬(0 : Fin Cert.KernelIdeal.S5000x128.rank) ∈ Cert.KernelIdeal.dot_S5000x128_S128x64_S5000x64_1_0_0_1_n_n.lhsBatch by decide),
      dif_pos (show (0 : Fin Cert.KernelIdeal.S5000x128.rank) ∈ Cert.KernelIdeal.dot_S5000x128_S128x64_S5000x64_1_0_0_1_n_n.lhsNonContracting by decide)]
    rfl
  l1 := fun i q => Cert.KernelIdeal.dot_S5000x128_S128x64_S5000x64_1_0_0_1_n_n.lhsIdx_val_of_single rfl i q
  r0 := fun i q => Cert.KernelIdeal.dot_S5000x128_S128x64_S5000x64_1_0_0_1_n_n.rhsIdx_val_of_single rfl i q
  r1 := fun i q => by
    unfold DotDims.rhsIdx
    rw [dif_neg (show ¬(1 : Fin Cert.KernelIdeal.S128x64.rank) ∈ Cert.KernelIdeal.dot_S5000x128_S128x64_S5000x64_1_0_0_1_n_n.rhsBatch by decide),
      dif_pos (show (1 : Fin Cert.KernelIdeal.S128x64.rank) ∈ Cert.KernelIdeal.dot_S5000x128_S128x64_S5000x64_1_0_0_1_n_n.rhsNonContracting by decide)]
    rfl

/-- `dot_S50000x128_S128x128_S50000x128_1_0_0_1_n_n` contracts the left operand's columns with the right operand's rows and keeps the left rows and the right
    columns: a plain product. -/
theorem rows_host_128 : RowsTimesMat Cert.ReferenceIdeal.dot_S50000x128_S128x128_S50000x128_1_0_0_1_n_n where
  rank := rfl
  size := rfl
  l0 := fun i q => by
    unfold DotDims.lhsIdx
    rw [dif_neg (show ¬(0 : Fin Cert.ReferenceIdeal.S50000x128.rank) ∈ Cert.ReferenceIdeal.dot_S50000x128_S128x128_S50000x128_1_0_0_1_n_n.lhsBatch by decide),
      dif_pos (show (0 : Fin Cert.ReferenceIdeal.S50000x128.rank) ∈ Cert.ReferenceIdeal.dot_S50000x128_S128x128_S50000x128_1_0_0_1_n_n.lhsNonContracting by decide)]
    rfl
  l1 := fun i q => Cert.ReferenceIdeal.dot_S50000x128_S128x128_S50000x128_1_0_0_1_n_n.lhsIdx_val_of_single rfl i q
  r0 := fun i q => Cert.ReferenceIdeal.dot_S50000x128_S128x128_S50000x128_1_0_0_1_n_n.rhsIdx_val_of_single rfl i q
  r1 := fun i q => by
    unfold DotDims.rhsIdx
    rw [dif_neg (show ¬(1 : Fin Cert.ReferenceIdeal.S128x128.rank) ∈ Cert.ReferenceIdeal.dot_S50000x128_S128x128_S50000x128_1_0_0_1_n_n.rhsBatch by decide),
      dif_pos (show (1 : Fin Cert.ReferenceIdeal.S128x128.rank) ∈ Cert.ReferenceIdeal.dot_S50000x128_S128x128_S50000x128_1_0_0_1_n_n.rhsNonContracting by decide)]
    rfl

/-- `dot_S50000x128_S128x64_S50000x64_1_0_0_1_n_n` contracts the left operand's columns with the right operand's rows and keeps the left rows and the right
    columns: a plain product. -/
theorem rows_host_64 : RowsTimesMat Cert.ReferenceIdeal.dot_S50000x128_S128x64_S50000x64_1_0_0_1_n_n where
  rank := rfl
  size := rfl
  l0 := fun i q => by
    unfold DotDims.lhsIdx
    rw [dif_neg (show ¬(0 : Fin Cert.ReferenceIdeal.S50000x128.rank) ∈ Cert.ReferenceIdeal.dot_S50000x128_S128x64_S50000x64_1_0_0_1_n_n.lhsBatch by decide),
      dif_pos (show (0 : Fin Cert.ReferenceIdeal.S50000x128.rank) ∈ Cert.ReferenceIdeal.dot_S50000x128_S128x64_S50000x64_1_0_0_1_n_n.lhsNonContracting by decide)]
    rfl
  l1 := fun i q => Cert.ReferenceIdeal.dot_S50000x128_S128x64_S50000x64_1_0_0_1_n_n.lhsIdx_val_of_single rfl i q
  r0 := fun i q => Cert.ReferenceIdeal.dot_S50000x128_S128x64_S50000x64_1_0_0_1_n_n.rhsIdx_val_of_single rfl i q
  r1 := fun i q => by
    unfold DotDims.rhsIdx
    rw [dif_neg (show ¬(1 : Fin Cert.ReferenceIdeal.S128x64.rank) ∈ Cert.ReferenceIdeal.dot_S50000x128_S128x64_S50000x64_1_0_0_1_n_n.rhsBatch by decide),
      dif_pos (show (1 : Fin Cert.ReferenceIdeal.S128x64.rank) ∈ Cert.ReferenceIdeal.dot_S50000x128_S128x64_S50000x64_1_0_0_1_n_n.rhsNonContracting by decide)]
    rfl

end Cert.SageRecords

end
-- ==== Proof.Layer1.lean ====
/-
  The first dense layer's output array, whatever the region finds in its buffers.

  The region runs the body at ten grid points. Point t loads rows 5000·t … 5000·t + 4999 of the node features and of
  the aggregated neighbour features (all 128 columns), the two 128 × 128 weight matrices whole and the bias row, and
  writes back the same rows of the output: at (r, q) the larger of zero and

      (Σ_k x(5000·t + r, k) · ws(k, q)  +  Σ_k h(5000·t + r, k) · wn(k, q))  +  b(q).

  An entry of the layer reads one row of each left operand only, so the block point t writes IS rows
  5000·t … 5000·t + 4999 of the layer of the whole arrays; the ten blocks tile the 50000 rows (row i lies in block
  i / 5000), so after the region the output array is the layer of the whole arrays, entry by entry.
-/
import proofs.«182260_j42691974922961_1_alg».proof.Proof.Gen.KernelIdeal.Frame
import proofs.«182260_j42691974922961_1_alg».proof.Proof.LibSageLayer
import proofs.«182260_j42691974922961_1_alg».proof.Proof.DotRecords
import Idealize.ShloMosaic.Lib.Pipeline.Value
import Idealize.ShloMosaic.Lib.ValueIdx
import Idealize.ShloMosaic.Lib.ValueLayout

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Cert.LibSageLayer Cert.SageRecords
open Idealize.ShloMosaic.Pipeline (Dat Cfg Window)

theorem hz : (![0, 0] : Fin 2 → Nat) = fun _ => 0 := funext fun a => by fin_cases a <;> rfl

/-- The body's stored value at (r, q): the layer's entry of the five loaded blocks, floored at zero. -/
theorem pay_apply (x0 x1 : Vec Ideal S5000x128 .f32) (x2 x3 : Vec Ideal S128x128 .f32) (x4 : Vec Ideal S1x128 .f32)
    (r : Fin 5000) (q : Fin 128) :
    k0_pay1 (F := Ideal) x0 x1 x2 x3 x4 (ix2 r q)
      = max (sageAt x0 x1 x2 x3 (fun q => x4 (ix2 (0 : Fin 1) q)) r q) (Ideal.ofBits .f32 0x00000000#32) := by
  unfold k0_pay1
  rw [shapeCast_self x1, shapeCast_self x4]
  exact congrArg₂ max (kernel_sage rows_kernel_128 x0 x1 x2 x3 x4 broadcasts_S1x128_S5000x128 r q) rfl

/-- The same at an index `y` of the block, against whole arrays `X`, `HN`, `Ws`, `Wn`, `B` that the loaded blocks agree
    with where the entry reads them: row `y 0` of the two row blocks is row `i 0` of the arrays, and the weights and the
    bias are read at the same column. -/
theorem block_entry (x0 x1 : Vec Ideal S5000x128 .f32) (x2 x3 : Vec Ideal S128x128 .f32) (x4 : Vec Ideal S1x128 .f32)
    (X HN : S50000x128.Idx → EReal) (Ws Wn : S128x128.Idx → EReal) (B : S1x128.Idx → EReal)
    (y : S5000x128.Idx) (i : S50000x128.Idx)
    (h0 : ∀ k : Fin 128, x0 (ix2 (y 0) k) = X (ix2 (i 0) k)) (h1 : ∀ k : Fin 128, x1 (ix2 (y 0) k) = HN (ix2 (i 0) k))
    (h2 : ∀ k : Fin 128, x2 (ix2 k (y 1)) = Ws (ix2 k (i 1))) (h3 : ∀ k : Fin 128, x3 (ix2 k (y 1)) = Wn (ix2 k (i 1)))
    (h4 : x4 (ix2 (0 : Fin 1) (y 1)) = B (ix2 (0 : Fin 1) (i 1))) :
    k0_pay1 (F := Ideal) x0 x1 x2 x3 x4 y
      = max (sageAt X HN Ws Wn (fun q => B (ix2 (0 : Fin 1) q)) (i 0) (i 1)) (Ideal.ofBits .f32 0x00000000#32) := by
  exact (congrArg (k0_pay1 (F := Ideal) x0 x1 x2 x3 x4) (eq_ix2 y)).trans
    ((pay_apply x0 x1 x2 x3 x4 (y 0) (y 1)).trans
      (congrArg (max · (Ideal.ofBits .f32 0x00000000#32)) (sageAt_congr h0 h1 h2 h3 h4)))

/-- The printed index maps, decided over the ten points: the two row-block windows move with the output window, the
    weights and the bias stay at block (0, 0), and the output's row block at point t is block t. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) = t.val :=
  (by decide +kernel : ∀ t : Fin grid0.N, _)

variable (V : (c : Dev nD) → (b : Ref sig .tc) → Buf (Elt Ideal) ((c : Thread nD τ).loc b))

/-- The layer of the whole arrays the region finds: node features `%arg0`, aggregated features `%18`, the weights
    `%arg3`, `%arg4`, the bias row `%19`; floored at zero. -/
def layer1 (c : Dev nD) : S50000x128.Idx → EReal := fun i =>
  max (sageAt (V c main_arg0) (V c main_v18) (V c main_arg3) (V c main_arg4) (fun q => V c main_v19 (ix2 (0 : Fin 1) q)) (i 0) (i 1))
    (Ideal.ofBits .f32 0x00000000#32)

/-- What point `t` writes back is block `t` of the layer of the whole arrays. -/
theorem flushed_eq (c : Dev nD) (t : Fin cfg0.N) :
    (dat0 V c).flushed 5 t = ((cfg0.win 5).blk t).view.read (Elt Ideal) (layer1 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e51, e50⟩ := idx_facts t
  funext j
  show k0_pay1 (F := Ideal) (iblk0 V c 0 t) (iblk0 V c 1 t) (iblk0 V c 2 t) (iblk0 V c 3 t) (iblk0 V c 4 t) j
    = layer1 V c (((cfg0.win 5).blk t).view.emb j)
  refine block_entry (iblk0 V c 0 t) (iblk0 V c 1 t) (iblk0 V c 2 t) (iblk0 V c 3 t) (iblk0 V c 4 t)
    (V c main_arg0) (V c main_v18) (V c main_arg3) (V c main_arg4) (V c main_v19) j (((cfg0.win 5).blk t).view.emb j) ?_ ?_ ?_ ?_ ?_
  · intro k
    show V c main_arg0 (((cfg0.win 0).blk t).view.emb (ix2 (j 0) k)) = V c main_arg0 (ix2 ((((cfg0.win 5).blk t).view.emb j) 0) k)
    refine congrArg (V c main_arg0) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · intro k
    show V c main_v18 (((cfg0.win 1).blk t).view.emb (ix2 (j 0) k)) = V c main_v18 (ix2 ((((cfg0.win 5).blk t).view.emb j) 0) k)
    refine congrArg (V c main_v18) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · intro k
    show V c main_arg3 (((cfg0.win 2).blk t).view.emb (ix2 k (j 1))) = V c main_arg3 (ix2 k ((((cfg0.win 5).blk t).view.emb j) 1))
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  · intro k
    show V c main_arg4 (((cfg0.win 3).blk t).view.emb (ix2 k (j 1))) = V c main_arg4 (ix2 k ((((cfg0.win 5).blk t).view.emb j) 1))
    refine congrArg (V c main_arg4) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  · show V c main_v19 (((cfg0.win 4).blk t).view.emb (ix2 (0 : Fin 1) (j 1))) = V c main_v19 (ix2 (0 : Fin 1) ((((cfg0.win 5).blk t).view.emb j) 1))
    refine congrArg (V c main_v19) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega

/-- An index of the output array lies in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v20).slice (win0_5.rect t)).set ↔ _
  rw [View.set_slice_whole, Rect.mem_set_unit]
  exact Iff.rfl

/-- The ten blocks tile the array: row `i` lies in the block of point `i / 5000`, which writes back. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, -, e51, e50⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- After the region the output array is the layer of the whole arrays the region found. -/
theorem array_eq (c : Dev nD) : (dat0 V c).arrAt 5 cfg0.N = layer1 V c :=
  (dat0 V c).arrAt_eq_of_cover 5 (layer1 V c) (fun t _ => flushed_eq V c t) cover

end Cert.KernelIdeal.Layer1

end
-- ==== Proof.Layer2.lean ====
/-
  The second dense layer's output array, whatever the region finds in its buffers.

  As for the first layer, ten grid points each take 5000 rows: point t loads rows 5000·t … 5000·t + 4999 of the hidden
  features and of their aggregate over the edges (128 columns each), the two 128 × 64 weight matrices whole and the bias
  row, and writes back the same rows of the 64-column output — with no floor at zero this time: at (r, q)

      (Σ_k x(5000·t + r, k) · ws(k, q)  +  Σ_k h(5000·t + r, k) · wn(k, q))  +  b(q).

  The block point t writes is rows 5000·t … 5000·t + 4999 of the layer of the whole arrays, the ten blocks tile the
  50000 rows, and so the output array ends as the layer of the whole arrays, entry by entry.
-/
import proofs.«182260_j42691974922961_1_alg».proof.Proof.Gen.KernelIdeal.Frame
import proofs.«182260_j42691974922961_1_alg».proof.Proof.LibSageLayer
import proofs.«182260_j42691974922961_1_alg».proof.Proof.DotRecords
import Idealize.ShloMosaic.Lib.Pipeline.Value
import Idealize.ShloMosaic.Lib.ValueIdx
import Idealize.ShloMosaic.Lib.ValueLayout

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem
open Cert.LibSageLayer Cert.SageRecords
open Idealize.ShloMosaic.Pipeline (Dat Cfg Window)

theorem hz : (![0, 0] : Fin 2 → Nat) = fun _ => 0 := funext fun a => by fin_cases a <;> rfl

/-- The body's stored value at (r, q): the layer's entry of the five loaded blocks. -/
theorem pay_apply (x0 x1 : Vec Ideal S5000x128 .f32) (x2 x3 : Vec Ideal S128x64 .f32) (x4 : Vec Ideal S1x64 .f32)
    (r : Fin 5000) (q : Fin 64) :
    k1_pay1 (F := Ideal) x0 x1 x2 x3 x4 (ix2 r q) = sageAt x0 x1 x2 x3 (fun q => x4 (ix2 (0 : Fin 1) q)) r q := by
  unfold k1_pay1
  rw [shapeCast_self x0, shapeCast_self x1, shapeCast_self x4]
  exact kernel_sage rows_kernel_64 x0 x1 x2 x3 x4 broadcasts_S1x64_S5000x64 r q

/-- The same at an index `y` of the block, against whole arrays `X`, `HN`, `Ws`, `Wn`, `B` that the loaded blocks agree
    with where the entry reads them: row `y 0` of the two row blocks is row `i 0` of the arrays, and the weights and the
    bias are read at the same column. -/
theorem block_entry (x0 x1 : Vec Ideal S5000x128 .f32) (x2 x3 : Vec Ideal S128x64 .f32) (x4 : Vec Ideal S1x64 .f32)
    (X HN : S50000x128.Idx → EReal) (Ws Wn : S128x64.Idx → EReal) (B : S1x64.Idx → EReal)
    (y : S5000x64.Idx) (i : S50000x64.Idx)
    (h0 : ∀ k : Fin 128, x0 (ix2 (y 0) k) = X (ix2 (i 0) k)) (h1 : ∀ k : Fin 128, x1 (ix2 (y 0) k) = HN (ix2 (i 0) k))
    (h2 : ∀ k : Fin 128, x2 (ix2 k (y 1)) = Ws (ix2 k (i 1))) (h3 : ∀ k : Fin 128, x3 (ix2 k (y 1)) = Wn (ix2 k (i 1)))
    (h4 : x4 (ix2 (0 : Fin 1) (y 1)) = B (ix2 (0 : Fin 1) (i 1))) :
    k1_pay1 (F := Ideal) x0 x1 x2 x3 x4 y = sageAt X HN Ws Wn (fun q => B (ix2 (0 : Fin 1) q)) (i 0) (i 1) :=
  (congrArg (k1_pay1 (F := Ideal) x0 x1 x2 x3 x4) (eq_ix2 y)).trans
    ((pay_apply x0 x1 x2 x3 x4 (y 0) (y 1)).trans (sageAt_congr h0 h1 h2 h3 h4))

/-- The printed index maps, decided over the ten points: the two row-block windows move with the output window, the
    weights and the bias stay at block (0, 0), and the output's row block at point t is block t. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) = t.val :=
  (by decide +kernel : ∀ t : Fin grid1.N, _)

variable (V : (c : Dev nD) → (b : Ref sig .tc) → Buf (Elt Ideal) ((c : Thread nD τ).loc b))

/-- The layer of the whole arrays the region finds: hidden features `%20`, their aggregate `%39`, the weights `%arg6`,
    `%arg7`, the bias row `%40`. -/
def layer2 (c : Dev nD) : S50000x64.Idx → EReal := fun i =>
  sageAt (V c main_v20) (V c main_v39) (V c main_arg6) (V c main_arg7) (fun q => V c main_v40 (ix2 (0 : Fin 1) q)) (i 0) (i 1)

/-- What point `t` writes back is block `t` of the layer of the whole arrays. -/
theorem flushed_eq (c : Dev nD) (t : Fin cfg1.N) :
    (dat1 V c).flushed 5 t = ((cfg1.win 5).blk t).view.read (Elt Ideal) (layer2 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e51, e50⟩ := idx_facts t
  funext j
  show k1_pay1 (F := Ideal) (iblk1 V c 0 t) (iblk1 V c 1 t) (iblk1 V c 2 t) (iblk1 V c 3 t) (iblk1 V c 4 t) j
    = layer2 V c (((cfg1.win 5).blk t).view.emb j)
  refine block_entry (iblk1 V c 0 t) (iblk1 V c 1 t) (iblk1 V c 2 t) (iblk1 V c 3 t) (iblk1 V c 4 t)
    (V c main_v20) (V c main_v39) (V c main_arg6) (V c main_arg7) (V c main_v40) j (((cfg1.win 5).blk t).view.emb j) ?_ ?_ ?_ ?_ ?_
  · intro k
    show V c main_v20 (((cfg1.win 0).blk t).view.emb (ix2 (j 0) k)) = V c main_v20 (ix2 ((((cfg1.win 5).blk t).view.emb j) 0) k)
    refine congrArg (V c main_v20) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · intro k
    show V c main_v39 (((cfg1.win 1).blk t).view.emb (ix2 (j 0) k)) = V c main_v39 (ix2 ((((cfg1.win 5).blk t).view.emb j) 0) k)
    refine congrArg (V c main_v39) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · intro k
    show V c main_arg6 (((cfg1.win 2).blk t).view.emb (ix2 k (j 1))) = V c main_arg6 (ix2 k ((((cfg1.win 5).blk t).view.emb j) 1))
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 64 + 1 * (j 1).val = win1_5.index t (1 : Fin 2) * 64 + 1 * (j 1).val; omega
  · intro k
    show V c main_arg7 (((cfg1.win 3).blk t).view.emb (ix2 k (j 1))) = V c main_arg7 (ix2 k ((((cfg1.win 5).blk t).view.emb j) 1))
    refine congrArg (V c main_arg7) (funext fun a => Fin.ext ?_)
    match a with
    | ⟨0, _⟩ => show win1_3.index t (0 : Fin 2) * 128 + 1 * k.val = k.val; omega
    | ⟨1, _⟩ => show win1_3.index t (1 : Fin 2) * 64 + 1 * (j 1).val = win1_5.index t (1 : Fin 2) * 64 + 1 * (j 1).val; omega
  · show V c main_v40 (((cfg1.win 4).blk t).view.emb (ix2 (0 : Fin 1) (j 1))) = V c main_v40 (ix2 (0 : Fin 1) ((((cfg1.win 5).blk t).view.emb j) 1))
    refine congrArg (V c main_v40) (funext fun a => Fin.ext ?_)
    match a with
    | ⟨0, _⟩ => show win1_4.index t (0 : Fin 2) * 1 + 1 * 0 = 0; omega
    | ⟨1, _⟩ => show win1_4.index t (1 : Fin 2) * 64 + 1 * (j 1).val = win1_5.index t (1 : Fin 2) * 64 + 1 * (j 1).val; omega

/-- An index of the output array lies in point `t`'s block iff each coordinate is in the block's range on its axis. -/
theorem mem_blk (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v41).slice (win1_5.rect t)).set ↔ _
  rw [View.set_slice_whole, Rect.mem_set_unit]
  exact Iff.rfl

/-- The ten blocks tile the array: row `i` lies in the block of point `i / 5000`, which writes back. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, -, -, e51, e50⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- After the region the output array is the layer of the whole arrays the region found. -/
theorem array_eq (c : Dev nD) : (dat1 V c).arrAt 5 cfg1.N = layer2 V c :=
  (dat1 V c).arrAt_eq_of_cover 5 (layer2 V c) (fun t _ => flushed_eq V c t) cover

end Cert.KernelIdeal.Layer2

end
-- ==== Proof.SageNet.lean ====
/-
  The two-layer graph network both programs compute, over the extended reals.

  `agg y src dst` is the mean of `y`'s rows over each node's incoming edges, exactly as the host states it: negative
  source indices wrapped by the node count, the rows gathered at the sources, scatter-added at the destinations into a
  zero array, and divided by the number of incoming edges floored at one. It is the same text in both programs and is
  never opened here: only that both apply this one function matters.

  A layer is  x · ws + agg(x) · wn + b ; the hidden layer floors it at zero, the output layer does not:

      hidden = max (x · W1s + agg x · W1n + b1) 0
      out    = hidden · W2s + agg hidden · W2n + b2.

  `refHidden` / `refOut` are the host's whole-array terms (two dot_generals, added, plus the bias vector laid out as a
  row and spread down the rows); `hidden` / `output` read them entry by entry as the two finite sums and the bias entry
  (`refHidden_eq`, `refOut_eq`); `reference_eq` says the reference's result is `refOut` of `refHidden`.
-/
import proofs.«182260_j42691974922961_1_alg».proof.Proof.Gen.ReferenceIdeal.Run
import proofs.«182260_j42691974922961_1_alg».proof.Proof.LibSageLayer
import proofs.«182260_j42691974922961_1_alg».proof.Proof.DotRecords
import Idealize.ShloMosaic.Lib.ValueIdx

set_option maxRecDepth 16384

noncomputable section

namespace Cert.SageNet

open Cert.ReferenceIdeal Cert.ReferenceIdeal.Gen Idealize.ShloMosaic Idealize.ShloMosaic.TcCoe Idealize.ShloMosaic.ValueIdx Idealize.SL.Sem
open Cert.LibSageLayer Cert.SageRecords

/-- The mean of `y`'s rows over each node's incoming edges (`src` → `dst`), as the host states it. -/
def agg (y : FVec Ideal S50000x128 .f32) (src dst : IVec S800000 32) : FVec Ideal S50000x128 .f32 :=
  Host.divf (Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 dst) (Host.gather gather_S50000x128_S800000x1_S800000x128_1_0_n_n_0_1_1128 y (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant (F := Ideal) S_ .f32 0x00000000#32)) (broadcastInDim S800000x1 ![0] bcast_S800000_S800000x1_0 dst) (broadcastInDim S800000 ![] bcast_S_S800000 (constant (F := Ideal) S_ .f32 0x3F800000#32))) (broadcastInDim S50000 ![] bcast_S_S50000 (constant (F := Ideal) S_ .f32 0x3F800000#32)))))

/-- The host's hidden layer as one array: `max (x · ws + a · wn + b) 0`. -/
def refHidden (x a : FVec Ideal S50000x128 .f32) (ws wn : FVec Ideal S128x128 .f32) (b : FVec Ideal S128 .f32) : FVec Ideal S50000x128 .f32 :=
  maximumf (addf (addf (Host.dotGeneral dot_S50000x128_S128x128_S50000x128_1_0_0_1_n_n none x ws) (Host.dotGeneral dot_S50000x128_S128x128_S50000x128_1_0_0_1_n_n none a wn)) (broadcastInDim S50000x128 ![0, 1] bcast_S1x128_S50000x128_0_1 (broadcastInDim S1x128 ![1] bcast_S128_S1x128_1 b))) (broadcastInDim S50000x128 ![] bcast_S_S50000x128 (constant (F := Ideal) S_ .f32 0x00000000#32))

/-- The host's output layer as one array: `h · ws + a · wn + b`. -/
def refOut (h a : FVec Ideal S50000x128 .f32) (ws wn : FVec Ideal S128x64 .f32) (b : FVec Ideal S64 .f32) : FVec Ideal S50000x64 .f32 :=
  addf (addf (Host.dotGeneral dot_S50000x128_S128x64_S50000x64_1_0_0_1_n_n none h ws) (Host.dotGeneral dot_S50000x128_S128x64_S50000x64_1_0_0_1_n_n none a wn)) (broadcastInDim S50000x64 ![0, 1] bcast_S1x64_S50000x64_0_1 (broadcastInDim S1x64 ![1] bcast_S64_S1x64_1 b))

/-- The hidden layer entry by entry. -/
def hidden (x a : S50000x128.Idx → EReal) (ws wn : S128x128.Idx → EReal) (b : S128.Idx → EReal) : S50000x128.Idx → EReal := fun i =>
  max (sageAt x a ws wn (fun q => b (ix1 q)) (i 0) (i 1)) (Ideal.ofBits .f32 0x00000000#32)

/-- The output layer entry by entry. -/
def output (h a : S50000x128.Idx → EReal) (ws wn : S128x64.Idx → EReal) (b : S64.Idx → EReal) : S50000x64.Idx → EReal := fun i =>
  sageAt h a ws wn (fun q => b (ix1 q)) (i 0) (i 1)

/-- The host's hidden layer is the entry-wise one: its two `dot_general`s are the two sums, its twice-broadcast bias the
    bias entry, and its floor is `max` against the zero word. -/
theorem refHidden_eq (x a : FVec Ideal S50000x128 .f32) (ws wn : FVec Ideal S128x128 .f32) (b : FVec Ideal S128 .f32) :
    refHidden x a ws wn b = hidden x a ws wn b := by
  funext i
  unfold refHidden hidden
  rw [eq_ix2 i]
  exact congrArg₂ max (host_sage rows_host_128 x a ws wn b bcast_S128_S1x128_1 bcast_S1x128_S50000x128_0_1 (i 0) (i 1)) rfl

/-- The host's output layer is the entry-wise one. -/
theorem refOut_eq (h a : FVec Ideal S50000x128 .f32) (ws wn : FVec Ideal S128x64 .f32) (b : FVec Ideal S64 .f32) :
    refOut h a ws wn b = output h a ws wn b := by
  funext i
  unfold refOut output
  rw [eq_ix2 i]
  exact host_sage rows_host_64 h a ws wn b bcast_S64_S1x64_1 bcast_S1x64_S50000x64_0_1 (i 0) (i 1)

variable (m : (ℓ : Loc nD τ sig) → Buf (Elt Ideal) ℓ)

set_option maxRecDepth 8192 in
/-- The reference's result is the output layer of the hidden layer and of its aggregate. -/
theorem reference_eq (c : Dev nD) :
    Cert.ReferenceIdeal.Value.res_main_v50 (F := Ideal) m c
      = refOut
          (refHidden (m ((c.tc : Thread nD τ).loc main_arg0))
            (agg (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4)) (m ((c.tc : Thread nD τ).loc main_arg5)))
          (agg
            (refHidden (m ((c.tc : Thread nD τ).loc main_arg0))
              (agg (m ((c.tc : Thread nD τ).loc main_arg0)) (m ((c.tc : Thread nD τ).loc main_arg1)) (m ((c.tc : Thread nD τ).loc main_arg2)))
              (m ((c.tc : Thread nD τ).loc main_arg3)) (m ((c.tc : Thread nD τ).loc main_arg4)) (m ((c.tc : Thread nD τ).loc main_arg5)))
            (m ((c.tc : Thread nD τ).loc main_arg1)) (m ((c.tc : Thread nD τ).loc main_arg2)))
          (m ((c.tc : Thread nD τ).loc main_arg6)) (m ((c.tc : Thread nD τ).loc main_arg7)) (m ((c.tc : Thread nD τ).loc main_arg8)) := by
  unfold Cert.ReferenceIdeal.Value.res_main_v50
  rfl

end Cert.SageNet

end
-- ==== Proof.KernelFound.lean ====
/-
  What the two kernel regions find in their buffers, and so what the idealized kernel returns.

  The first region is entered after the host operations that aggregate the input features: it finds the node features,
  the two first-layer weight matrices and (reshaped to a row) the first bias as launched, and in `%18` the aggregate
  `agg x src dst`. Its output `%20` is therefore the hidden layer `hidden x (agg x) W1s W1n b1` (the first layer's array
  lemma at these contents; the bias row read at (0, q) is the bias vector at q).

  The second region is entered after the same host operations applied to `%20`: it finds `%20` untouched, in `%39` the
  aggregate of `%20`, and the second-layer weights and bias as launched. Its output, the program's result, is the
  output layer of the hidden layer and of its aggregate.
-/
import proofs.«182260_j42691974922961_1_alg».proof.Proof.Gen.KernelIdeal.Frame
import proofs.«182260_j42691974922961_1_alg».proof.Proof.Layer1
import proofs.«182260_j42691974922961_1_alg».proof.Proof.Layer2
import proofs.«182260_j42691974922961_1_alg».proof.Proof.SageNet
import Idealize.ShloMosaic.Lib.StableHlo.Run
import Idealize.ShloMosaic.Lib.ValueIdx

set_option maxRecDepth 16384

noncomputable section

namespace Cert.KernelIdeal.Found

open Cert.KernelIdeal Cert.KernelIdeal.Gen Idealize.ShloMosaic Idealize.ShloMosaic.TcCoe Idealize.ShloMosaic.ValueIdx Idealize.SL.Sem
open Idealize.ShloMosaic.StableHlo
open Cert.LibSageLayer Cert.SageNet

variable (m : (ℓ : Loc nD τ sig) → Buf (Elt Ideal) ℓ) (ρ : Dev nD → PrngReg)

/-! ## At the first region's entry -/

theorem entry1_arg0 (c : Dev nD) : V1 m ρ c main_arg0 = (m ((c.tc : Thread nD τ).loc main_arg0)) := by
  show StableHlo.after hostOps0 (W0 m ρ c) (Proc.devRef .tc main_arg0) = _
  after_results_simp <;> rfl
theorem entry1_arg3 (c : Dev nD) : V1 m ρ c main_arg3 = (m ((c.tc : Thread nD τ).loc main_arg3)) := by
  show StableHlo.after hostOps0 (W0 m ρ c) (Proc.devRef .tc main_arg3) = _
  after_results_simp <;> rfl
theorem entry1_arg4 (c : Dev nD) : V1 m ρ c main_arg4 = (m ((c.tc : Thread nD τ).loc main_arg4)) := by
  show StableHlo.after hostOps0 (W0 m ρ c) (Proc.devRef .tc main_arg4) = _
  after_results_simp <;> rfl

/-- The bias row is the first bias vector reshaped. -/
theorem entry1_v19 (c : Dev nD) :
    V1 m ρ c main_v19 = shapeCast S1x128 (m ((c.tc : Thread nD τ).loc main_arg5)) shapeCasts_S128_S1x128 := by
  show StableHlo.after hostOps0 (W0 m ρ c) (Proc.devRef .tc main_v19) = _
  after_results_simp <;> rfl

set_option maxHeartbeats 8000000 in
/-- `%18` holds the aggregate of the input features. -/
theorem entry1_v18 (c : Dev nD) :
    V1 m ρ c main_v18 = agg (m ((c.tc : Thread nD τ).loc main_arg0)) (m ((c.tc : Thread nD τ).loc main_arg1)) (m ((c.tc : Thread nD τ).loc main_arg2)) := by
  show StableHlo.after hostOps0 (W0 m ρ c) (Proc.devRef .tc main_v18) = _
  after_results_simp <;> rfl

/-! ## Between the regions -/

theorem mid_arg1 (c : Dev nD) : W2 m ρ c (Proc.devRef .tc main_arg1) = (m ((c.tc : Thread nD τ).loc main_arg1)) :=
  (W2_of_ne m ρ c main_arg1 (by decide)).trans (by
  show StableHlo.after hostOps0 (W0 m ρ c) (Proc.devRef .tc main_arg1) = _
  after_results_simp <;> rfl)
theorem mid_arg2 (c : Dev nD) : W2 m ρ c (Proc.devRef .tc main_arg2) = (m ((c.tc : Thread nD τ).loc main_arg2)) :=
  (W2_of_ne m ρ c main_arg2 (by decide)).trans (by
  show StableHlo.after hostOps0 (W0 m ρ c) (Proc.devRef .tc main_arg2) = _
  after_results_simp <;> rfl)
theorem mid_arg6 (c : Dev nD) : W2 m ρ c (Proc.devRef .tc main_arg6) = (m ((c.tc : Thread nD τ).loc main_arg6)) :=
  (W2_of_ne m ρ c main_arg6 (by decide)).trans (by
  show StableHlo.after hostOps0 (W0 m ρ c) (Proc.devRef .tc main_arg6) = _
  after_results_simp <;> rfl)
theorem mid_arg7 (c : Dev nD) : W2 m ρ c (Proc.devRef .tc main_arg7) = (m ((c.tc : Thread nD τ).loc main_arg7)) :=
  (W2_of_ne m ρ c main_arg7 (by decide)).trans (by
  show StableHlo.after hostOps0 (W0 m ρ c) (Proc.devRef .tc main_arg7) = _
  after_results_simp <;> rfl)
theorem mid_arg8 (c : Dev nD) : W2 m ρ c (Proc.devRef .tc main_arg8) = (m ((c.tc : Thread nD τ).loc main_arg8)) :=
  (W2_of_ne m ρ c main_arg8 (by decide)).trans (by
  show StableHlo.after hostOps0 (W0 m ρ c) (Proc.devRef .tc main_arg8) = _
  after_results_simp <;> rfl)

/-- The hidden layer of the launch contents. -/
abbrev H (c : Dev nD) : S50000x128.Idx → EReal :=
  Cert.SageNet.hidden (m ((c.tc : Thread nD τ).loc main_arg0)) (agg (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)) (m ((c.tc : Thread nD τ).loc main_arg5))

/-- The first region leaves the hidden layer in `%20`. -/
theorem mid_v20 (c : Dev nD) : W2 m ρ c (Proc.devRef .tc main_v20) = H m c := by
  refine (W2_arr m ρ c 5).trans ((Layer1.array_eq (V1 m ρ) c).trans ?_)
  funext i
  unfold Layer1.layer1 H Cert.SageNet.hidden
  exact congrArg (max · (Ideal.ofBits .f32 0x00000000#32)) (sageAt_congr
    (fun j => congrFun (entry1_arg0 m ρ c) _) (fun j => congrFun (entry1_v18 m ρ c) _)
    (fun j => congrFun (entry1_arg3 m ρ c) _) (fun j => congrFun (entry1_arg4 m ρ c) _)
    ((congrFun (entry1_v19 m ρ c) _).trans (bias_row_apply (m ((c.tc : Thread nD τ).loc main_arg5)) shapeCasts_S128_S1x128 (i 1))))

/-! ## At the second region's entry -/

theorem entry2_v20 (c : Dev nD) : V3 m ρ c main_v20 = W2 m ρ c (Proc.devRef .tc main_v20) := by
  show StableHlo.after hostOps1 (W2 m ρ c) (Proc.devRef .tc main_v20) = _
  after_results_simp <;> rfl
theorem entry2_arg6 (c : Dev nD) : V3 m ρ c main_arg6 = W2 m ρ c (Proc.devRef .tc main_arg6) := by
  show StableHlo.after hostOps1 (W2 m ρ c) (Proc.devRef .tc main_arg6) = _
  after_results_simp <;> rfl
theorem entry2_arg7 (c : Dev nD) : V3 m ρ c main_arg7 = W2 m ρ c (Proc.devRef .tc main_arg7) := by
  show StableHlo.after hostOps1 (W2 m ρ c) (Proc.devRef .tc main_arg7) = _
  after_results_simp <;> rfl

/-- The bias row is the second bias vector reshaped. -/
theorem entry2_v40 (c : Dev nD) :
    V3 m ρ c main_v40 = shapeCast S1x64 (W2 m ρ c (Proc.devRef .tc main_arg8)) shapeCasts_S64_S1x64 := by
  show StableHlo.after hostOps1 (W2 m ρ c) (Proc.devRef .tc main_v40) = _
  after_results_simp <;> rfl

set_option maxHeartbeats 8000000 in
/-- `%39` holds the aggregate of what the first region left in `%20`. -/
theorem entry2_v39 (c : Dev nD) :
    V3 m ρ c main_v39 = agg (W2 m ρ c (Proc.devRef .tc main_v20)) (W2 m ρ c (Proc.devRef .tc main_arg1)) (W2 m ρ c (Proc.devRef .tc main_arg2)) := by
  show StableHlo.after hostOps1 (W2 m ρ c) (Proc.devRef .tc main_v39) = _
  after_results_simp <;> rfl

/-! ## The result -/

/-- The idealized kernel's result array after the run: the output layer of the hidden layer and of its aggregate. -/
theorem result_eq (c : Dev nD) :
    W4 m ρ c (Proc.devRef .tc main_v41)
      = Cert.SageNet.output (H m c) (agg (H m c) (m ((c.tc : Thread nD τ).loc main_arg1)) (m ((c.tc : Thread nD τ).loc main_arg2))) (m ((c.tc : Thread nD τ).loc main_arg6)) (m ((c.tc : Thread nD τ).loc main_arg7)) (m ((c.tc : Thread nD τ).loc main_arg8)) := by
  refine (W4_arr m ρ c 5).trans ((Layer2.array_eq (V3 m ρ) c).trans ?_)
  have h20 : V3 m ρ c main_v20 = H m c := (entry2_v20 m ρ c).trans (mid_v20 m ρ c)
  have h39 : V3 m ρ c main_v39 = agg (H m c) (m ((c.tc : Thread nD τ).loc main_arg1)) (m ((c.tc : Thread nD τ).loc main_arg2)) := by
    rw [entry2_v39, mid_v20, mid_arg1, mid_arg2]
  funext i
  unfold Layer2.layer2 Cert.SageNet.output
  exact sageAt_congr
    (fun j => congrFun h20 _) (fun j => congrFun h39 _)
    (fun j => congrFun ((entry2_arg6 m ρ c).trans (mid_arg6 m ρ c)) _)
    (fun j => congrFun ((entry2_arg7 m ρ c).trans (mid_arg7 m ρ c)) _)
    ((congrFun (entry2_v40 m ρ c) _).trans ((bias_row_apply (W2 m ρ c (Proc.devRef .tc main_arg8)) shapeCasts_S64_S1x64 (i 1)).trans
      (congrFun (mid_arg8 m ρ c) _)))

end Cert.KernelIdeal.Found

end
-- ==== Proof.lean ====
/-
  A two-layer graph network (mean aggregation over incoming edges, then a dense layer; twice) computed by a kernel and by
  a plain host program: the two return the same array over the extended reals.

  Both programs aggregate with the SAME host operations — gather the rows at the edge sources, scatter-add them at the
  destinations, divide by the in-degree floored at one — so that part is one function `agg` applied by both and is never
  opened. They differ in the dense half of each layer,  x · Ws + agg(x) · Wn + b :

    * the kernel runs it as a grid of ten blocks of 5000 rows, each block two matrix products into zero accumulators,
      added, plus the bias row spread down the rows (the narrowing of the operands to a shorter float format is the
      identity on the extended reals);
    * the reference runs it as two whole-array dot_generals, added, plus the bias vector laid out as a row and spread.

  Entry (p, q) of either is  (Σ_k x(p,k)·Ws(k,q) + Σ_k agg(x)(p,k)·Wn(k,q)) + b(q) : the same two finite sums and the
  same bias entry in the same association, so the two agree on every extended real and the finiteness of the inputs is
  never used. An entry reads only row p of its left operands, so a block of rows of a layer is the layer of that block,
  and the ten blocks tile the rows. The hidden layer floors this at zero in both programs; the output layer does not.

  Modules: LibSageLayer (the layer's entry and its two computed forms), DotRecords (the four products are plain
  products), Layer1 / Layer2 (each region's output array is the layer of what the region finds), KernelRun (the
  kernel's run with the result array named), KernelFound (what each region finds, hence the kernel's result), SageNet
  (the network as one function, and the reference's result as that function). Here: the five claims.
-/
import proofs.«182260_j42691974922961_1_alg».proof.Defs
import proofs.«182260_j42691974922961_1_alg».proof.Proof.Gen.Kernel
import proofs.«182260_j42691974922961_1_alg».proof.Proof.Gen.Kernel.Skeleton
import proofs.«182260_j42691974922961_1_alg».proof.Proof.Gen.Kernel.Launch
import proofs.«182260_j42691974922961_1_alg».proof.Proof.Gen.Kernel.Points
import proofs.«182260_j42691974922961_1_alg».proof.Proof.Gen.Kernel.Frame
import proofs.«182260_j42691974922961_1_alg».proof.Proof.Gen.KernelIdeal
import proofs.«182260_j42691974922961_1_alg».proof.Proof.Gen.KernelIdeal.Skeleton
import proofs.«182260_j42691974922961_1_alg».proof.Proof.Gen.KernelIdeal.Launch
import proofs.«182260_j42691974922961_1_alg».proof.Proof.Gen.KernelIdeal.Points
import proofs.«182260_j42691974922961_1_alg».proof.Proof.Gen.KernelIdeal.Frame
import proofs.«182260_j42691974922961_1_alg».proof.Proof.Gen.ReferenceIdeal
import proofs.«182260_j42691974922961_1_alg».proof.Proof.Gen.ReferenceIdeal.Run
import proofs.«182260_j42691974922961_1_alg».proof.Proof.Gen.ReferenceIdeal.Read
import proofs.«182260_j42691974922961_1_alg».proof.Proof.Gen.Pre_finite_inputs
import proofs.«182260_j42691974922961_1_alg».proof.Proof.KernelRun
import proofs.«182260_j42691974922961_1_alg».proof.Proof.KernelFound
import proofs.«182260_j42691974922961_1_alg».proof.Proof.SageNet
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read on the extended reals. -/
theorem preserves : Cert.preserves_Kernel_KernelIdeal := trivial

/-- The network of the kernel's launch memory: the output layer of the hidden layer and of its aggregate. -/
abbrev network (m : (ℓ : Loc Cert.KernelIdeal.nD Cert.KernelIdeal.τ Cert.KernelIdeal.sig) → Buf (Elt Ideal) ℓ)
    (c : Dev Cert.KernelIdeal.nD) : Cert.ReferenceIdeal.S50000x64.Idx → EReal :=
  Cert.SageNet.output (Cert.KernelIdeal.Found.H m c)
    (Cert.SageNet.agg (Cert.KernelIdeal.Found.H m c) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

/-- The idealized kernel ends with the network of its launch memory in its result array: the run with the result
    named, and what the two regions find. The reference ends with the network of ITS launch memory: its run, its term
    as the two host layers, each host layer entry by entry. The two memories agree on the nine arguments. -/
theorem algebraic : Cert.algebraic_KernelIdeal_ReferenceIdeal := by
  intro m ρ m' ρ' _ hagree
  refine ⟨fun c => network m c, ?_, ?_⟩
  · exact (θ_run Cert.KernelIdeal.defs _ _).mono
      (fun r h c => ⟨(h c).1.trans (Cert.KernelIdeal.Found.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.SageNet.reference_eq, Cert.SageNet.refHidden_eq, Cert.SageNet.refOut_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
